-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v12) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x512x512x2 : Shape := ⟨4, ![64, 512, 512, 2]⟩
abbrev S_ : Shape := ⟨0, ![]⟩

class Facts : Prop where
  bcast_S_S64x512x512x2 : S_.BroadcastsInDim S64x512x512x2 (![] : Fin 0 → Fin S64x512x512x2.rank)
  reducesTo_S64x512x512x2_S_d0_1_2_3 : S64x512x512x2.ReducesTo [0, 1, 2, 3] S_
  h_S_ : 0 < S_.numel

variable [Facts]

def fn {F : FTy → Type} [FloatOps F] (main_arg0 : FVec F S64x512x512x2 .f32) : IVec S_ 1 :=
  let main_v0 : FVec F S64x512x512x2 .f32 := Host.absf main_arg0
  let main_cst : FVec F S_ .f32 := constant S_ .f32 0x7F800000#32
  let main_v1 : FVec F S64x512x512x2 .f32 := broadcastInDim S64x512x512x2 ![] bcast_S_S64x512x512x2 main_cst
  let main_v2 : IVec S64x512x512x2 1 := cmpf .olt main_v0 main_v1
  let main_c : IVec S_ 1 := constantI S_ 1 1#1
  let main_v3 : IVec S_ 1 := (fun x v => Host.reduce IntOp.andi x v reducesTo_S64x512x512x2_S_d0_1_2_3 h_S_) main_v2 main_c
  main_v3
-- ==== Kernel.lean ====
abbrev S64x512x512x2 : Shape := ⟨4, ![64, 512, 512, 2]⟩
abbrev S64x512x512x1 : Shape := ⟨4, ![64, 512, 512, 1]⟩
abbrev S4x512x512x2 : Shape := ⟨4, ![4, 512, 512, 2]⟩
abbrev S4x512x512x1 : Shape := ⟨4, ![4, 512, 512, 1]⟩

abbrev nBuf : Space → Nat
  | .hbm => 2
  | .vmem => 4
  | .smem => 0
  | _ => 0

abbrev bufTy : (tb : Table) → Fin (tcTables nBuf tb) → BufTy
  | .hbm, ⟨0, _⟩ => ⟨S64x512x512x2, .f32⟩
  | .hbm, ⟨1, _⟩ => ⟨S64x512x512x1, .f32⟩
  | .local _ .vmem, ⟨0, _⟩ => ⟨S4x512x512x2, .f32⟩
  | .local _ .vmem, ⟨1, _⟩ => ⟨S4x512x512x2, .f32⟩
  | .local _ .vmem, ⟨2, _⟩ => ⟨S4x512x512x1, .f32⟩
  | .local _ .vmem, ⟨3, _⟩ => ⟨S4x512x512x1, .f32⟩
  | _, _ => ⟨S64x512x512x2, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![16], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S4x512x512x2 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4x512x512x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

class Facts₀ : Prop where
  inb_S4x512x512x2_S4x512x512x2_0_0_0_0 : ∀ a, (![0, 0, 0, 0] : Fin 4 → Nat) a + S4x512x512x2.size a ≤ S4x512x512x2.size a
  h_S4x512x512x2 : 0 < S4x512x512x2.numel
  slices_S4x512x512x2_o0_0_0_0_S4x512x512x1 : S4x512x512x2.Slices ![0, 0, 0, 0] S4x512x512x1
  slices_S4x512x512x2_o0_0_0_1_S4x512x512x1 : S4x512x512x2.Slices ![0, 0, 0, 1] S4x512x512x1
  inb_S4x512x512x1_S4x512x512x1_0_0_0_0 : ∀ a, (![0, 0, 0, 0] : Fin 4 → Nat) a + S4x512x512x1.size a ≤ S4x512x512x1.size a
  h_S4x512x512x1 : 0 < S4x512x512x1.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4x512x512x2.size a ≤ S64x512x512x2.size a
  hwx0_0 : ∀ i : grid0.Coords, EltTy.bits .f32 = 32 ∨ (Rect.block (s := S64x512x512x2) S4x512x512x2.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4x512x512x1.size a ≤ S64x512x512x1.size a
  hwx0_1 : ∀ i : grid0.Coords, EltTy.bits .f32 = 32 ∨ (Rect.block (s := S64x512x512x1) S4x512x512x1.size (cc0_transform_1 i) (hinb0_1 i)).WholeWords (EltTy.packing .f32)

variable [Facts₀]

abbrev win0_0 : Pipeline.Window sig grid0 :=
  Pipeline.Window.ofSpec (Memref.whole main_arg0) S4x512x512x2.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S4x512x512x1.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S64x512x512x2 : Shape := ⟨4, ![64, 512, 512, 2]⟩
abbrev S64x512x512x1 : Shape := ⟨4, ![64, 512, 512, 1]⟩
abbrev S_ : Shape := ⟨0, ![]⟩

abbrev nBuf : Space → Nat
  | .hbm => 22
  | .vmem => 0
  | .smem => 0
  | _ => 0

abbrev bufTy : (tb : Table) → Fin (tcTables nBuf tb) → BufTy
  | .hbm, ⟨0, _⟩ => ⟨S64x512x512x2, .f32⟩
  | .hbm, ⟨1, _⟩ => ⟨S64x512x512x1, .f32⟩
  | .hbm, ⟨2, _⟩ => ⟨S64x512x512x1, .f32⟩
  | .hbm, ⟨3, _⟩ => ⟨S_, .f32⟩
  | .hbm, ⟨4, _⟩ => ⟨S64x512x512x1, .f32⟩
  | .hbm, ⟨5, _⟩ => ⟨S64x512x512x1, .f32⟩
  | .hbm, ⟨6, _⟩ => ⟨S_, .f32⟩
  | .hbm, ⟨7, _⟩ => ⟨S64x512x512x1, .f32⟩
  | .hbm, ⟨8, _⟩ => ⟨S64x512x512x1, .f32⟩
  | .hbm, ⟨9, _⟩ => ⟨S_, .f32⟩
  | .hbm, ⟨10, _⟩ => ⟨S64x512x512x1, .f32⟩
  | .hbm, ⟨11, _⟩ => ⟨S64x512x512x1, .f32⟩
  | .hbm, ⟨12, _⟩ => ⟨S64x512x512x1, .f32⟩
  | .hbm, ⟨13, _⟩ => ⟨S_, .f32⟩
  | .hbm, ⟨14, _⟩ => ⟨S64x512x512x1, .f32⟩
  | .hbm, ⟨15, _⟩ => ⟨S64x512x512x1, .i1⟩
  | .hbm, ⟨16, _⟩ => ⟨S_, .f32⟩
  | .hbm, ⟨17, _⟩ => ⟨S_, .f32⟩
  | .hbm, ⟨18, _⟩ => ⟨S64x512x512x1, .f32⟩
  | .hbm, ⟨19, _⟩ => ⟨S64x512x512x1, .f32⟩
  | .hbm, ⟨20, _⟩ => ⟨S64x512x512x1, .f32⟩
  | .hbm, ⟨21, _⟩ => ⟨S64x512x512x1, .f32⟩
  | _, _ => ⟨S64x512x512x2, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_cst : Ref sig .tc := ⟨.hbm, 3, rfl⟩
abbrev main_v2 : Ref sig .tc := ⟨.hbm, 4, rfl⟩
abbrev main_v3 : Ref sig .tc := ⟨.hbm, 5, rfl⟩
abbrev main_cst_0 : Ref sig .tc := ⟨.hbm, 6, rfl⟩
abbrev main_v4 : Ref sig .tc := ⟨.hbm, 7, rfl⟩
abbrev main_v5 : Ref sig .tc := ⟨.hbm, 8, rfl⟩
abbrev main_cst_1 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst_2 : Ref sig .tc := ⟨.hbm, 13, rfl⟩
abbrev main_v9 : Ref sig .tc := ⟨.hbm, 14, rfl⟩
abbrev main_v10 : Ref sig .tc := ⟨.hbm, 15, rfl⟩
abbrev main_cst_3 : Ref sig .tc := ⟨.hbm, 16, rfl⟩
abbrev main_cst_4 : Ref sig .tc := ⟨.hbm, 17, rfl⟩
abbrev main_call0_v0 : Ref sig .tc := ⟨.hbm, 18, rfl⟩
abbrev main_call0_v1 : Ref sig .tc := ⟨.hbm, 19, rfl⟩
abbrev main_v11 : Ref sig .tc := ⟨.hbm, 20, rfl⟩
abbrev main_v12 : Ref sig .tc := ⟨.hbm, 21, rfl⟩

abbrev nD : Nat := 1
abbrev τ : Topo := Topo.v7x

variable {F : FTy → Type} [FloatOps F]

class Facts₀ : Prop where
  slices_S64x512x512x2_S64x512x512x1_0_0_0_0 : S64x512x512x2.Slices ![0, 0, 0, 0] S64x512x512x1
  slices_S64x512x512x2_S64x512x512x1_0_0_0_1 : S64x512x512x2.Slices ![0, 0, 0, 1] S64x512x512x1
  bcast_S_S64x512x512x1 : S_.BroadcastsInDim S64x512x512x1 (![] : Fin 0 → Fin S64x512x512x1.rank)

variable [Facts₀]

class Facts : Prop extends Facts₀ where

variable [Facts]
-- ==== Proof.PixelMask.lean ====
/-
  The mask of a batch of images, as one function of the pixel array.

  The input holds 64 images of 512 × 512 pixels, each pixel a pair (saturation `s`, value `v`) on the last axis.
  The result has one number per pixel: `0` where `v · 255 / (1 + s · 255) > 2`, and `1` elsewhere. Everything is read on
  the extended reals: product, sum and quotient are the exact ones, the comparison is the strict order, and the four
  float literals (`255`, `1`, `2`, `0`) stay as their binary words — the same word is used wherever the same number
  occurs, so no literal is ever evaluated.

  Nothing here depends on how the array is cut into blocks or on the order in which a program computes the terms:
  the value at a mask index depends only on the two channels of the one pixel under it.
-/
import Idealize.ShloMosaic.PureOps.Ideal
import Idealize.ShloMosaic.Lib.ValueIdx

noncomputable section

namespace Cert.PixelMask

open Idealize.ShloMosaic Idealize.ShloMosaic.ValueIdx

/-- The pixel array: 64 images, 512 rows, 512 columns, 2 channels. -/
abbrev Pixels : Shape := ⟨4, ![64, 512, 512, 2]⟩

/-- The mask array: the same images, rows and columns, one entry per pixel. -/
abbrev Masks : Shape := ⟨4, ![64, 512, 512, 1]⟩

/-- Channel `k` of the pixel that the mask index `i` names: same image, row and column, last coordinate `k`
    (`0` the saturation, `1` the value). The mask's own last coordinate carries nothing: its axis has extent one. -/
abbrev channel (k : Fin 2) (i : Masks.Idx) : Pixels.Idx :=
  ix4 (n0 := 64) (n1 := 512) (n2 := 512) (n3 := 2) (i 0) (i 1) (i 2) k

/-- One pixel's mask from its saturation `s` and its value `v`: `0` if `v · 255 / (1 + s · 255) > 2`, else `1`. -/
def ofPixel (s v : Ideal .f32) : Ideal .f32 :=
  Scalar.select
    (FloatOps.cmpf .ogt
      (FloatOps.divf (FloatOps.mulf v (FloatOps.ofBits .f32 0x437F0000#32))
        (FloatOps.addf (FloatOps.ofBits .f32 0x3F800000#32) (FloatOps.mulf s (FloatOps.ofBits .f32 0x437F0000#32))))
      (FloatOps.ofBits .f32 0x40000000#32))
    (FloatOps.ofBits .f32 0x00000000#32) (FloatOps.ofBits .f32 0x3F800000#32)

/-- The same pixel formula with the quotient taken by the host's division: on the extended reals the two divisions
    are one function, so this is `ofPixel` again. -/
theorem ofPixel_hostDiv (s v : Ideal .f32) :
    Scalar.select
      (FloatOps.cmpf .ogt
        (FloatOps.hostDivf (FloatOps.mulf v (FloatOps.ofBits .f32 0x437F0000#32))
          (FloatOps.addf (FloatOps.ofBits .f32 0x3F800000#32) (FloatOps.mulf s (FloatOps.ofBits .f32 0x437F0000#32))))
        (FloatOps.ofBits .f32 0x40000000#32))
      (FloatOps.ofBits .f32 0x00000000#32) (FloatOps.ofBits .f32 0x3F800000#32)
    = ofPixel s v := rfl

/-- The whole mask: at every mask index, the pixel formula of the two channels of the pixel under it. -/
def mask (x : Pixels.Idx → Ideal .f32) : Masks.Idx → Ideal .f32 :=
  fun i => ofPixel (x (channel 0 i)) (x (channel 1 i))

theorem mask_apply (x : Pixels.Idx → Ideal .f32) (i : Masks.Idx) :
    mask x i = ofPixel (x (channel 0 i)) (x (channel 1 i)) := rfl

end Cert.PixelMask

end
-- ==== Proof.ReferenceMask.lean ====
/-
  The reference computes the mask.

  The reference slices the two channels out of the whole pixel array, forms `v · 255` and `1 + s · 255`, divides on the
  host, compares with `2` and selects `0` or `1`. Read at a mask index, each slice is the pixel array at the channel of
  the pixel under that index (the slice for the value starts at offset one on the last axis, the one for the saturation
  at offset zero, and the mask's last coordinate is always zero), every broadcast scalar is its literal, and the rest is
  pointwise. So the reference's result is the pixel formula of the two channels, index by index: the function `mask`.
-/
import proofs.«120754_j76905684402617_1_alg».proof.Proof.Gen.ReferenceIdeal.Read
import proofs.«120754_j76905684402617_1_alg».proof.Proof.PixelMask

noncomputable section

namespace Cert.ReferenceIdeal.RefMask

open Cert.ReferenceIdeal Cert.ReferenceIdeal.Read Cert.PixelMask
open Idealize.ShloMosaic Idealize.ShloMosaic.ValueIdx

/-- The saturation slice (offset zero on the last axis) reads the pixel array at channel 0 of the pixel under the index. -/
theorem saturation_index (i : S64x512x512x1.Idx) : idx_main_v0 i = channel 0 i := by
  funext a; apply Fin.ext
  match a with
  | ⟨0, _⟩ => rfl
  | ⟨1, _⟩ => rfl
  | ⟨2, _⟩ => rfl
  | ⟨3, _⟩ =>
    have h3 : (i 3).val < 1 := (i 3).isLt
    show (i 3).val = 0
    omega

/-- The value slice (offset one on the last axis) reads the pixel array at channel 1 of the pixel under the index. -/
theorem value_index (i : S64x512x512x1.Idx) : idx_main_v1 i = channel 1 i := by
  funext a; apply Fin.ext
  match a with
  | ⟨0, _⟩ => rfl
  | ⟨1, _⟩ => rfl
  | ⟨2, _⟩ => rfl
  | ⟨3, _⟩ =>
    have h3 : (i 3).val < 1 := (i 3).isLt
    show 1 + (i 3).val = 1
    omega

/-- The reference's last stage, as a function of the pixel array, is `mask`. -/
theorem reference_eq (x : (⟨S64x512x512x2, .f32⟩ : BufTy).Contents (Elt Ideal)) :
    val_main_v12 (F := Ideal) x = mask x := by
  funext i
  rw [val_main_v12_apply, val_main_v11_apply, val_main_v10_apply, val_main_v8_apply, val_main_v3_apply,
    val_main_v7_apply, val_main_v5_apply, val_main_v1_apply, val_main_v0_apply, val_main_v2_apply,
    val_main_v4_apply, val_main_v6_apply, val_main_v9_apply, val_main_call0_v0_apply, val_main_call0_v1_apply,
    val_main_cst_apply, val_main_cst_0_apply, val_main_cst_1_apply, val_main_cst_2_apply, val_main_cst_3_apply,
    val_main_cst_4_apply, saturation_index, value_index]
  exact ofPixel_hostDiv _ _

end Cert.ReferenceIdeal.RefMask

end
-- ==== Proof.KernelMask.lean ====
/-
  The kernel computes the mask.

  The kernel walks the batch in 16 steps. At step `t` it is given images `4t … 4t + 3` whole — all rows, columns and both
  channels — and writes the same four images of the mask. Inside a step the body is pointwise once its two slices are read
  at an index: the entry at `(b, r, q, 0)` of the block it leaves is the pixel formula of the entries `(b, r, q, 0)` (the
  saturation) and `(b, r, q, 1)` (the value) of the block it was given. That much is the generated value leg's statement
  (`canon1_eq`, with `E1` the formula).

  What is added here:
  * `block_value`: that statement, for an arbitrary input block, in terms of `ofPixel`;
  * `flushed_eq`: so what step `t` writes back is block `t` of `mask` of the pixel array — an element `(b, r, q, k)` of the
    input block at step `t` is the array's element `(4t + b, r, q, k)`, and an element `(b, r, q, 0)` of the output block is
    the mask's element `(4t + b, r, q, 0)`: the two windows move together along the batch axis and sit still on the others;
  * `cover`: every mask index lies in some step's block — image `b` is in step `b / 4`;
  * `final`, `run`: hence, after the run, the output array is `mask` of the input array, everywhere.
-/
import proofs.«120754_j76905684402617_1_alg».proof.Proof.Gen.KernelIdeal.Value
import proofs.«120754_j76905684402617_1_alg».proof.Proof.PixelMask

set_option maxRecDepth 16384

noncomputable section

namespace Cert.KernelIdeal.MaskValue

open Cert.KernelIdeal Cert.KernelIdeal.Gen Cert.KernelIdeal.Value Cert.PixelMask
open Idealize.ShloMosaic Idealize.ShloMosaic.TcCoe Idealize.SL.Sem
open Idealize.ShloMosaic.Pipeline (Dat)

variable (m : (ℓ : Loc nD τ sig) → Buf (Elt Ideal) ℓ) (ρ : Dev nD → PrngReg)

/-- The body reads and writes its blocks from their origin. -/
theorem origin : (![0, 0, 0, 0] : Fin 4 → Nat) = fun _ => 0 := funext fun a => by fin_cases a <;> rfl

/-- The block a step leaves, at an index, is the pixel formula of the two channels of the input block at the same image, row
    and column — for any input block. -/
theorem block_value (x0 : Vec Ideal S4x512x512x2 .f32) (j : S4x512x512x1.Idx) :
    out0_1 x0 j = ofPixel (x0 (ix1_1 j)) (x0 (ix1_0 j)) := by
  have hld : View.ld x0 r0_0 = x0 := View.ld_unit_zero (S := S4x512x512x2) origin _ x0
  unfold out0_1
  refine (canon1_eq (F := Ideal) (View.ld x0 r0_0) j).trans ?_
  rw [hld]
  rfl

/-- The two windows' block indices over the 16 steps: the input window and the output window are at the same position on the
    batch axis, at most 15, and at position zero on every other axis. -/
theorem block_index : ∀ t : Fin cfg0.N,
    win0_0.index t (0 : Fin 4) = win0_1.index t (0 : Fin 4)
    ∧ win0_0.index t (1 : Fin 4) = 0 ∧ win0_0.index t (2 : Fin 4) = 0 ∧ win0_0.index t (3 : Fin 4) = 0
    ∧ win0_1.index t (1 : Fin 4) = 0 ∧ win0_1.index t (2 : Fin 4) = 0 ∧ win0_1.index t (3 : Fin 4) = 0
    ∧ win0_1.index t (0 : Fin 4) ≤ 15 :=
  (by decide +kernel : ∀ t : Fin grid0.N, _)

/-- Every position on the batch axis is some step's. -/
theorem block_onto : ∀ q : Fin 16, ∃ t : Fin cfg0.N, win0_1.index t = ![q.val, 0, 0, 0] :=
  (by decide +kernel : ∀ q : Fin 16, ∃ t : Fin grid0.N, win0_1.index t = ![q.val, 0, 0, 0])

/-- What step `t` writes back is block `t` of `mask` of the pixel array. -/
theorem flushed_eq (c : Dev nD) (t : Fin cfg0.N) :
    (dats m 0 c).flushed 1 t = ((cfg0.win 1).blk t).view.read (Elt Ideal) (mask (V m c main_arg0)) := by
  rw [flushed1]
  obtain ⟨e0, e1, e2, e3, f1, f2, f3, -⟩ := block_index t
  funext j
  show out0_1 (iblk m c 0 t) j = mask (V m c main_arg0) (((cfg0.win 1).blk t).view.emb j)
  refine (block_value (iblk m c 0 t) j).trans ?_
  show ofPixel (V m c main_arg0 (((cfg0.win 0).blk t).view.emb (ix1_1 j)))
      (V m c main_arg0 (((cfg0.win 0).blk t).view.emb (ix1_0 j)))
    = ofPixel (V m c main_arg0 (channel 0 (((cfg0.win 1).blk t).view.emb j)))
      (V m c main_arg0 (channel 1 (((cfg0.win 1).blk t).view.emb j)))
  have hs : ((cfg0.win 0).blk t).view.emb (ix1_1 j) = channel 0 (((cfg0.win 1).blk t).view.emb j) := by
    funext a; apply Fin.ext
    match a with
    | ⟨0, _⟩ => show win0_0.index t (0 : Fin 4) * 4 + 1 * (j 0).val = win0_1.index t (0 : Fin 4) * 4 + 1 * (j 0).val; omega
    | ⟨1, _⟩ => show win0_0.index t (1 : Fin 4) * 512 + 1 * (j 1).val = win0_1.index t (1 : Fin 4) * 512 + 1 * (j 1).val; omega
    | ⟨2, _⟩ => show win0_0.index t (2 : Fin 4) * 512 + 1 * (j 2).val = win0_1.index t (2 : Fin 4) * 512 + 1 * (j 2).val; omega
    | ⟨3, _⟩ => show win0_0.index t (3 : Fin 4) * 2 + 1 * 0 = 0; omega
  have hv : ((cfg0.win 0).blk t).view.emb (ix1_0 j) = channel 1 (((cfg0.win 1).blk t).view.emb j) := by
    funext a; apply Fin.ext
    match a with
    | ⟨0, _⟩ => show win0_0.index t (0 : Fin 4) * 4 + 1 * (j 0).val = win0_1.index t (0 : Fin 4) * 4 + 1 * (j 0).val; omega
    | ⟨1, _⟩ => show win0_0.index t (1 : Fin 4) * 512 + 1 * (j 1).val = win0_1.index t (1 : Fin 4) * 512 + 1 * (j 1).val; omega
    | ⟨2, _⟩ => show win0_0.index t (2 : Fin 4) * 512 + 1 * (j 2).val = win0_1.index t (2 : Fin 4) * 512 + 1 * (j 2).val; omega
    | ⟨3, _⟩ => show win0_0.index t (3 : Fin 4) * 2 + 1 * 1 = 1; omega
  rw [hs, hv]

/-- A mask index is in step `t`'s block iff each of its coordinates is in the block's range on its axis. -/
theorem mem_blk (t : Fin cfg0.N) (i : S64x512x512x1.Idx) :
    i ∈ ((cfg0.win 1).blk t).view.set ↔ ∀ a : Fin 4, win0_1.index t a * S4x512x512x1.size a ≤ (i a).val
      ∧ (i a).val < win0_1.index t a * S4x512x512x1.size a + S4x512x512x1.size a := by
  show i ∈ ((View.whole main_v0).slice (win0_1.rect t)).set ↔ _
  rw [View.set_slice_whole, Rect.mem_set_unit]
  exact Iff.rfl

/-- Every mask index is written by some step: image `b` belongs to step `b / 4`, whose block spans every row and column. -/
theorem cover (i : S64x512x512x1.Idx) :
    ∃ t : Fin cfg0.N, (cfg0.win 1).flush t = true ∧ i ∈ ((cfg0.win 1).blk t).view.set := by
  have hi0 : (i 0).val < 64 := (i 0).isLt
  have hi1 : (i 1).val < 512 := (i 1).isLt
  have hi2 : (i 2).val < 512 := (i 2).isLt
  have hi3 : (i 3).val < 1 := (i 3).isLt
  obtain ⟨t, ht⟩ := block_onto ⟨(i 0).val / 4, by omega⟩
  have q0 : win0_1.index t (0 : Fin 4) = (i 0).val / 4 := congrFun ht 0
  have q1 : win0_1.index t (1 : Fin 4) = 0 := congrFun ht 1
  have q2 : win0_1.index t (2 : Fin 4) = 0 := congrFun ht 2
  have q3 : win0_1.index t (3 : Fin 4) = 0 := congrFun ht 3
  refine ⟨t, flush0_1 t, ?_⟩
  rw [mem_blk]
  intro a
  match a with
  | ⟨0, _⟩ => show win0_1.index t (0 : Fin 4) * 4 ≤ (i 0).val ∧ (i 0).val < win0_1.index t (0 : Fin 4) * 4 + 4; omega
  | ⟨1, _⟩ => show win0_1.index t (1 : Fin 4) * 512 ≤ (i 1).val ∧ (i 1).val < win0_1.index t (1 : Fin 4) * 512 + 512; omega
  | ⟨2, _⟩ => show win0_1.index t (2 : Fin 4) * 512 ≤ (i 2).val ∧ (i 2).val < win0_1.index t (2 : Fin 4) * 512 + 512; omega
  | ⟨3, _⟩ => show win0_1.index t (3 : Fin 4) * 1 ≤ (i 3).val ∧ (i 3).val < win0_1.index t (3 : Fin 4) * 1 + 1; omega

/-- After the run the output array is `mask` of the pixel array as launched, at every index. -/
theorem final (c : Dev nD) : (dats m 0 c).arrAt 1 cfg0.N = mask (m ((c : Thread nD τ).loc main_arg0)) :=
  (dats m 0 c).arrAt_eq_of_cover 1 (mask (V m c main_arg0)) (fun t _ => flushed_eq m c t) cover

/-- The kernel's run: every weakly fair execution terminates with the output array at `mask` of the input array and the input
    array unchanged. -/
theorem run : θ_run defs (onTc (τ := τ) (main (F := Ideal))) ⟨m, fun _ => 0, ρ⟩ fun r => ∀ c : Dev nD,
      r.2.mem ((c : Thread nD τ).loc main_v0) = mask (m ((c : Thread nD τ).loc main_arg0))
      ∧ r.2.mem ((c : Thread nD τ).loc main_arg0) = m ((c : Thread nD τ).loc main_arg0) :=
  (θ_run defs _ _).mono (fun r h c => ⟨(h c).1.trans (final m c), (h c).2⟩) (run_blocks m ρ)

end Cert.KernelIdeal.MaskValue

end
-- ==== Proof.lean ====
/-
  A threshold mask over a batch of images: the kernel and its reference compute the same array.

  The input is 64 images of 512 × 512 pixels with two channels, saturation `s` and value `v`. Both programs return, per
  pixel, `0` where `v · 255 / (1 + s · 255) > 2` and `1` elsewhere. The kernel does so four images at a time over 16 steps,
  slicing the two channels out of the block it is handed; the reference slices them out of the whole array and works on
  whole arrays on the host. On the extended reals the two are the same function of the input, term by term: the same
  products, the same sum, a quotient that is the same division whether the kernel or the host takes it, the same strict
  comparison, the same two outcomes — and every float literal occurs as the same binary word on both sides. No algebraic
  law is needed to pass from one to the other, so nothing asks the inputs to be finite: the precondition is never opened.

  * `Proof/PixelMask.lean` states that function once: `mask`, the pixel formula at every mask index.
  * `Proof/ReferenceMask.lean`: the reference's last stage is `mask` (its slices read at an index, the rest pointwise).
  * `Proof/KernelMask.lean`: each step writes its block of `mask`, the 16 blocks cover the array, so the kernel's output
    array after the run is `mask` of the input.

  Here the five claims are assembled. The three frames are the generated ones (the reference's is its generated run with
  the result dropped). The kernel's idealization rewrote nothing, so there is nothing to preserve. For the last claim both
  runs are posted at the one term `mask` of the kernel's input array; the reference starts from a memory that agrees with
  the kernel's on that array.
-/
import proofs.«120754_j76905684402617_1_alg».proof.Defs
import proofs.«120754_j76905684402617_1_alg».proof.Proof.Gen.Kernel
import proofs.«120754_j76905684402617_1_alg».proof.Proof.Gen.Kernel.Frame
import proofs.«120754_j76905684402617_1_alg».proof.Proof.Gen.KernelIdeal
import proofs.«120754_j76905684402617_1_alg».proof.Proof.Gen.KernelIdeal.Frame
import proofs.«120754_j76905684402617_1_alg».proof.Proof.Gen.KernelIdeal.Value
import proofs.«120754_j76905684402617_1_alg».proof.Proof.Gen.ReferenceIdeal
import proofs.«120754_j76905684402617_1_alg».proof.Proof.Gen.ReferenceIdeal.Run
import proofs.«120754_j76905684402617_1_alg».proof.Proof.Gen.ReferenceIdeal.Read
import proofs.«120754_j76905684402617_1_alg».proof.Proof.Gen.Pre_finite_inputs
import proofs.«120754_j76905684402617_1_alg».proof.Proof.PixelMask
import proofs.«120754_j76905684402617_1_alg».proof.Proof.ReferenceMask
import proofs.«120754_j76905684402617_1_alg».proof.Proof.KernelMask
import Idealize.ShloMosaic.Adequacy
import Idealize.ShloMosaic.Init

noncomputable section

namespace Cert.Proof

open Idealize.ShloMosaic Idealize.ShloMosaic.TcCoe Idealize.SL.Sem

/-- The kernel as printed runs to the end without a fault and leaves the pixel array as it was. -/
theorem frame_kernel : Cert.frame_Kernel := fun m ρ _ => Cert.Kernel.Gen.frame m ρ

/-- So does the kernel read on the extended reals. -/
theorem frame_kernelIdeal : Cert.frame_KernelIdeal := fun m ρ _ => Cert.KernelIdeal.Gen.frame m ρ

/-- So does the reference: its run, with what it says about the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation of the kernel. -/
theorem preserves : Cert.preserves_Kernel_KernelIdeal := trivial

/-- From memories that agree on the pixel array, the kernel's output array and the reference's result are both `mask` of
    that array: the kernel's by its blocks (`KernelMask`), the reference's by its stages read at an index (`ReferenceMask`). -/
theorem algebraic : Cert.algebraic_KernelIdeal_ReferenceIdeal := by
  intro m ρ m' ρ' _ hagree
  refine ⟨_, Cert.KernelIdeal.MaskValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v12_eq, Cert.ReferenceIdeal.RefMask.reference_eq, hagree c]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
